-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S16x1433 : Shape := ⟨2, ![16, 1433]⟩
abbrev S3200000 : Shape := ⟨1, ![3200000]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S16x1433 : S_.BroadcastsInDim S16x1433 (![] : Fin 0 → Fin S16x1433.rank)
  reducesTo_S16x1433_S_d0_1 : S16x1433.ReducesTo [0, 1] S_

variable [Facts]

def fn {F : FTy → Type} [FloatOps F] (main_arg0 : FVec F S100000x1433 .f32) (main_arg1 : FVec F S16x1433 .f32) (main_arg2 : IVec S3200000 32) (main_arg3 : IVec S3200000 32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S16x1433 .f32 := Host.absf main_arg1
  let main_cst_0 : FVec F S_ .f32 := constant S_ .f32 0x7F800000#32
  let main_v5 : FVec F S16x1433 .f32 := broadcastInDim S16x1433 ![] bcast_S_S16x1433 main_cst_0
  let main_v6 : IVec S16x1433 1 := cmpf .olt main_v4 main_v5
  let main_c_1 : IVec S_ 1 := constantI S_ 1 1#1
  let main_v7 : IVec S_ 1 := (fun x v => Host.reduce IntOp.andi x v reducesTo_S16x1433_S_d0_1 h_S_) main_v6 main_c_1
  let main_v8 : IVec S_ 1 := andi main_v3 main_v7
  main_v8
-- ==== Kernel.lean ====
abbrev S100000x1433 : Shape := ⟨2, ![100000, 1433]⟩
abbrev S16x1433 : Shape := ⟨2, ![16, 1433]⟩
abbrev S3200000 : Shape := ⟨1, ![3200000]⟩
abbrev S100000x16 : Shape := ⟨2, ![100000, 16]⟩
abbrev S2000x1433 : Shape := ⟨2, ![2000, 1433]⟩
abbrev S2000x16 : Shape := ⟨2, ![2000, 16]⟩
abbrev S1433x16 : Shape := ⟨2, ![1433, 16]⟩
abbrev S_ : Shape := ⟨0, ![]⟩
abbrev S3200000x1 : Shape := ⟨2, ![3200000, 1]⟩
abbrev S3200000x16 : Shape := ⟨2, ![3200000, 16]⟩
abbrev S10000x16 : Shape := ⟨2, ![10000, 16]⟩

abbrev nBuf : Space → Nat
  | .hbm => 19
  | .vmem => 9
  | .smem => 0
  | _ => 0

abbrev bufTy : (tb : Table) → Fin (tcTables nBuf tb) → BufTy
  | .hbm, ⟨0, _⟩ => ⟨S100000x1433, .f32⟩
  | .hbm, ⟨1, _⟩ => ⟨S16x1433, .f32⟩
  | .hbm, ⟨2, _⟩ => ⟨S3200000, .i32⟩
  | .hbm, ⟨3, _⟩ => ⟨S3200000, .i32⟩
  | .hbm, ⟨4, _⟩ => ⟨S100000x16, .f32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x16, .f32⟩
  | .hbm, ⟨14, _⟩ => ⟨S_, .f32⟩
  | .hbm, ⟨15, _⟩ => ⟨S100000x16, .f32⟩
  | .hbm, ⟨16, _⟩ => ⟨S3200000x1, .i32⟩
  | .hbm, ⟨17, _⟩ => ⟨S100000x16, .f32⟩
  | .hbm, ⟨18, _⟩ => ⟨S100000x16, .f32⟩
  | .local _ .vmem, ⟨0, _⟩ => ⟨S2000x1433, .f32⟩
  | .local _ .vmem, ⟨1, _⟩ => ⟨S2000x1433, .f32⟩
  | .local _ .vmem, ⟨2, _⟩ => ⟨S16x1433, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1433 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S16x1433_S16x1433_0_0 : ∀ a, (![0, 0] : Fin 2 → Nat) a + S16x1433.size a ≤ S16x1433.size a
  h_S16x1433 : 0 < S16x1433.numel
  transposes_S16x1433_p1_0_S1433x16 : S16x1433.Transposes [1, 0] S1433x16
  inb_S2000x16_S2000x16_0_0 : ∀ a, (![0, 0] : Fin 2 → Nat) a + S2000x16.size a ≤ S2000x16.size a
  h_S2000x16 : 0 < S2000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S2000x1433_S1433x16_S2000x16_1_0_0_1_n_n_wf : DotDims.WF S2000x1433 S1433x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1433.size a ≤ S16x1433.size a
  hwx0_1 : ∀ i : grid0.Coords, EltTy.bits .f32 = 32 ∨ (Rect.block (s := S16x1433) S16x1433.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)

variable [Facts₀]

def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1433.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x16.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S16x1433 : Shape := ⟨2, ![16, 1433]⟩
abbrev S3200000 : Shape := ⟨1, ![3200000]⟩
abbrev S1433x16 : Shape := ⟨2, ![1433, 16]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩

abbrev nBuf : Space → Nat
  | .hbm => 22
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S16x1433, .f32⟩
  | .hbm, ⟨2, _⟩ => ⟨S3200000, .i32⟩
  | .hbm, ⟨3, _⟩ => ⟨S3200000, .i32⟩
  | .hbm, ⟨4, _⟩ => ⟨S1433x16, .f32⟩
  | .hbm, ⟨5, _⟩ => ⟨S100000x16, .f32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x16, .f32⟩
  | .hbm, ⟨15, _⟩ => ⟨S_, .f32⟩
  | .hbm, ⟨16, _⟩ => ⟨S100000x16, .f32⟩
  | .hbm, ⟨17, _⟩ => ⟨S3200000x1, .i32⟩
  | .hbm, ⟨18, _⟩ => ⟨S100000x16, .f32⟩
  | .hbm, ⟨19, _⟩ => ⟨S_, .f32⟩
  | .hbm, ⟨20, _⟩ => ⟨S100000x16, .f32⟩
  | .hbm, ⟨21, _⟩ => ⟨S100000x16, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  transposes_S16x1433_S1433x16_1_0 : S16x1433.Transposes [1, 0] S1433x16
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its RESULT ARRAY named.

  @main is three segments: the projection's region, a stretch of host operations (the index fix-up, the gather, the
  scatter-add), the relu's region. The generated frame run ends in the thread state "every unscoped buffer at the fold
  `W3` of the segments from the launch memory"; read against the final state, that gives every unscoped buffer's final
  contents. Here the result buffer is read beside the four arguments: it ends at `W3 m ρ c main_v11`, which the later
  modules unfold segment by segment.
-/
import proofs.«166954_j12532714570032_1_alg».proof.Proof.Gen.KernelIdeal.Frame

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the segments' fold
    `W3` read at the result buffer, and the four argument arrays end as launched. -/
theorem run_named : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Layer

end
-- ==== Proof.LayerSpec.lean ====
/-
  The graph layer's two dense pieces as functions of whole arrays, at the ideal values (floats are extended reals).

  `proj feat w` is the linear projection: node `r`'s output feature `o` is the inner product of the node's feature row
  with weight row `o`, a sum over the 1433 input features. `relu x` is the maximum with zero, entry by entry. Between the
  two sits the sum aggregation over edges (a gather of projected rows by source node, added into destination nodes), which
  both programs compute by the same host operations and which no proof here opens.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- The node features: 100000 nodes, 1433 features each. -/
abbrev SFeat : Shape := ⟨2, ![100000, 1433]⟩
/-- The weights: 16 output features, 1433 input features each. -/
abbrev SWgt : Shape := ⟨2, ![16, 1433]⟩
/-- The projected (and the aggregated, and the final) node features: 100000 nodes, 16 features each. -/
abbrev SOut : Shape := ⟨2, ![100000, 16]⟩

/-- The linear projection `feat · wᵀ`: entry `(r, o)` is `∑ₖ feat[r, k] · w[o, k]`. -/
def proj (feat : FVec Ideal SFeat .f32) (w : FVec Ideal SWgt .f32) : FVec Ideal SOut .f32 :=
  fun i => ∑ k : Fin 1433, feat (ix2 (i 0) k) * w (ix2 (i 1) k)

/-- The projection at an entry given by its coordinates. -/
theorem proj_apply (feat : FVec Ideal SFeat .f32) (w : FVec Ideal SWgt .f32) (r : Fin 100000) (o : Fin 16) :
    proj feat w (ix2 r o) = ∑ k : Fin 1433, feat (ix2 r k) * w (ix2 o k) := rfl

/-- The rectifier: each entry's maximum with zero (the zero word's value). -/
def relu (x : FVec Ideal SOut .f32) : FVec Ideal SOut .f32 :=
  fun i => max (x i) (Ideal.ofBits .f32 0x00000000#32)

/-- The rectifier at an entry. -/
theorem relu_apply (x : FVec Ideal SOut .f32) (i : SOut.Idx) :
    relu x i = max (x i) (Ideal.ofBits .f32 0x00000000#32) := rfl

end Cert.Layer

end
-- ==== Proof.Projection.lean ====
/-
  The projection's region: after its fifty grid points the result array holds the whole linear projection.

  Point `t` of the grid loads rows `2000·t … 2000·t + 1999` of the features and the whole weight array, and stores the
  matrix product of the feature block with the transposed weights, accumulated from zero. At the ideal values the
  change of float format before the product is the identity, and the product's entry `(r, o)` is the sum over the
  contracted axis of `block[r, k] · w[o, k]`. The fifty blocks of 2000 rows tile the 100000 rows, so every entry of the
  result array is written by the one point whose block holds its row, and the array ends at `proj` of the two arrays
  the region found.
-/
import proofs.«166954_j12532714570032_1_alg».proof.Proof.Gen.KernelIdeal.Frame
import proofs.«166954_j12532714570032_1_alg».proof.Proof.LayerSpec
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen Cert.Layer
open Idealize.ShloMosaic Idealize.ShloMosaic.TcCoe Idealize.ShloMosaic.ValueIdx Idealize.SL.Sem
open Idealize.ShloMosaic.Pipeline (Dat)

/-- The zero offsets of a whole-buffer access, as a constant function. -/
theorem zero_offsets : (![0, 0] : Fin 2 → Nat) = fun _ => 0 := funext fun a => by fin_cases a <;> rfl

/-! ## The product's operand indices: at output entry `j` and contraction index `q` the left operand is read at
    `(j 0, q)` and the right at `(q, j 1)` -/

theorem dot_lhs_row (j : S2000x16.Idx) (q : dot_S2000x1433_S1433x16_S2000x16_1_0_0_1_n_n.contr.Idx) :
    (dot_S2000x1433_S1433x16_S2000x16_1_0_0_1_n_n.lhsIdx j q 0).val = (j 0).val := by
  unfold DotDims.lhsIdx
  rw [dif_neg (show ¬(0 : Fin S2000x1433.rank) ∈ dot_S2000x1433_S1433x16_S2000x16_1_0_0_1_n_n.lhsBatch by decide), dif_pos (show (0 : Fin S2000x1433.rank) ∈ dot_S2000x1433_S1433x16_S2000x16_1_0_0_1_n_n.lhsNonContracting by decide)]
  rfl
theorem dot_lhs_contr (j : S2000x16.Idx) (q : dot_S2000x1433_S1433x16_S2000x16_1_0_0_1_n_n.contr.Idx) :
    (dot_S2000x1433_S1433x16_S2000x16_1_0_0_1_n_n.lhsIdx j q 1).val = (q ⟨0, by decide⟩).val :=
  dot_S2000x1433_S1433x16_S2000x16_1_0_0_1_n_n.lhsIdx_val_of_single rfl j q
theorem dot_rhs_contr (j : S2000x16.Idx) (q : dot_S2000x1433_S1433x16_S2000x16_1_0_0_1_n_n.contr.Idx) :
    (dot_S2000x1433_S1433x16_S2000x16_1_0_0_1_n_n.rhsIdx j q 0).val = (q ⟨0, by decide⟩).val :=
  dot_S2000x1433_S1433x16_S2000x16_1_0_0_1_n_n.rhsIdx_val_of_single rfl j q
theorem dot_rhs_col (j : S2000x16.Idx) (q : dot_S2000x1433_S1433x16_S2000x16_1_0_0_1_n_n.contr.Idx) :
    (dot_S2000x1433_S1433x16_S2000x16_1_0_0_1_n_n.rhsIdx j q 1).val = (j 1).val := by
  unfold DotDims.rhsIdx
  rw [dif_neg (show ¬(1 : Fin S1433x16.rank) ∈ dot_S2000x1433_S1433x16_S2000x16_1_0_0_1_n_n.rhsBatch by decide), dif_pos (show (1 : Fin S1433x16.rank) ∈ dot_S2000x1433_S1433x16_S2000x16_1_0_0_1_n_n.rhsNonContracting by decide)]
  rfl

/-- THE BODY'S STORED VALUE at entry `(r, o)` of the block: the inner product of row `r` of the loaded feature block
    with row `o` of the loaded weights. The roundings to the narrower format are the identity on extended reals, the
    transpose reads weight entry `(o, k)` at `(k, o)`, and the product into the zero accumulator is the plain sum. -/
theorem pay_proj (x0 : Vec Ideal S2000x1433 .f32) (x1 : Vec Ideal S16x1433 .f32) (r : Fin 2000) (o : Fin 16) :
    k0_pay1 (F := Ideal) x0 x1 (ix2 r o) = ∑ k : Fin 1433, x0 (ix2 r k) * x1 (ix2 o k) := by
  unfold k0_pay1
  refine (Ideal.matmul_constant_zero_apply dot_S2000x1433_S1433x16_S2000x16_1_0_0_1_n_n none _ _ (ix2 r o)).trans ?_
  rw [← Equiv.sum_comp (contrEquiv1 dot_S2000x1433_S1433x16_S2000x16_1_0_0_1_n_n 1433 rfl rfl).symm]
  refine Finset.sum_congr rfl fun k _ => ?_
  have hk := contrEquiv1_symm_val dot_S2000x1433_S1433x16_S2000x16_1_0_0_1_n_n 1433 rfl rfl k
  have el : dot_S2000x1433_S1433x16_S2000x16_1_0_0_1_n_n.lhsIdx (ix2 r o) ((contrEquiv1 dot_S2000x1433_S1433x16_S2000x16_1_0_0_1_n_n 1433 rfl rfl).symm k) = ix2 r k := funext fun a => Fin.ext (by
    match a with
    | ⟨0, _⟩ => exact dot_lhs_row _ _
    | ⟨1, _⟩ => exact (dot_lhs_contr _ _).trans hk)
  rw [el]
  refine congrArg (x0 (ix2 r k) * ·) ?_
  refine transpose_apply [1, 0] _ transposes_S16x1433_p1_0_S1433x16 _ (ix2 o k) (fun b => ?_)
  match b with
  | ⟨0, _⟩ => exact ((dot_rhs_contr (ix2 r o) ((contrEquiv1 dot_S2000x1433_S1433x16_S2000x16_1_0_0_1_n_n 1433 rfl rfl).symm k)).trans hk).symm
  | ⟨1, _⟩ => exact (dot_rhs_col (ix2 r o) ((contrEquiv1 dot_S2000x1433_S1433x16_S2000x16_1_0_0_1_n_n 1433 rfl rfl).symm k)).symm

/-! ## From the blocks to the array -/

section Region
variable (V : (c : Dev nD) → (b : Ref sig .tc) → Buf (Elt Ideal) ((c : Thread nD τ).loc b))

/-- The block indices over the grid: at point `t` the feature window and the result window are on row block `t`,
    the weight window stays on its one block. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the feature block at point `t` is row `2000·t + r` of the feature array. -/
theorem feat_block (c : Dev nD) (t : Fin cfg0.N) (r : Fin 2000) (k : Fin 1433) (R : Fin 100000)
    (hR : R.val = t.val * 2000 + r.val) :
    iblk0 V c 0 t (ix2 r k) = V c main_arg0 (ix2 R k) := by
  obtain ⟨e00, e01, -, -, -, -⟩ := block_indices0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * r.val = R.val; rw [e00, hR]; omega
  | ⟨1, _⟩ => show win0_0.index t (1 : Fin 2) * 1433 + 1 * k.val = k.val; rw [e01]; omega

/-- The weight block at every point is the whole weight array. -/
theorem wgt_block (c : Dev nD) (t : Fin cfg0.N) (o : Fin 16) (k : Fin 1433) :
    iblk0 V c 1 t (ix2 o k) = V c main_arg1 (ix2 o k) := by
  obtain ⟨-, -, e10, e11, -, -⟩ := block_indices0 t
  unfold iblk0
  rw [View.read_apply]
  show V c main_arg1 _ = V c main_arg1 _
  refine congrArg (V c main_arg1) ?_
  funext a
  apply Fin.ext
  match a with
  | ⟨0, _⟩ => show win0_1.index t (0 : Fin 2) * 16 + 1 * o.val = o.val; rw [e10]; omega
  | ⟨1, _⟩ => show win0_1.index t (1 : Fin 2) * 1433 + 1 * k.val = k.val; rw [e11]; omega

/-- WHAT POINT `t` WRITES BACK is block `t` of the projection of the arrays the region found. -/
theorem flushed_proj (c : Dev nD) (t : Fin cfg0.N) :
    (dat0 V c).flushed 2 t = ((cfg0.win 2).blk t).view.read (Elt Ideal) (proj (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x1433) zero_offsets, View.ld_unit_zero (S := S16x1433) zero_offsets]
  obtain ⟨-, -, -, -, e20, e21⟩ := block_indices0 t
  have hN : cfg0.N = 50 := N_0
  have ht : t.val < 50 := hN ▸ t.isLt
  funext j
  obtain ⟨r, o, rfl⟩ : ∃ (r : Fin 2000) (o : Fin 16), j = ix2 r o := ⟨j 0, j 1, eq_ix2 j⟩
  refine (pay_proj (iblk0 V c 0 t) (iblk0 V c 1 t) r o).trans ?_
  have hr : r.val < 2000 := r.isLt
  have hR : t.val * 2000 + r.val < 100000 := by omega
  have hemb : ((View.whole main_v0).slice ((win0 2).rect t)).emb (ix2 r o) = ix2 (⟨t.val * 2000 + r.val, hR⟩ : Fin 100000) o := by
    funext a
    apply Fin.ext
    match a with
    | ⟨0, _⟩ => show win0_2.index t (0 : Fin 2) * 2000 + 1 * r.val = t.val * 2000 + r.val; rw [e20]; omega
    | ⟨1, _⟩ => show win0_2.index t (1 : Fin 2) * 16 + 1 * o.val = o.val; rw [e21]; omega
  rw [View.read_apply, hemb, proj_apply]
  refine Finset.sum_congr rfl fun k _ => ?_
  rw [feat_block V c t r k ⟨t.val * 2000 + r.val, hR⟩ rfl, wgt_block V c t o k]

/-- An entry of the result array is in point `t`'s block iff each coordinate is in the block's range on its axis. -/
theorem mem_block0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v0).slice (win0_2.rect t)).set ↔ _
  rw [View.set_slice_whole, Rect.mem_set_unit]
  exact Iff.rfl

/-- THE RESULT ARRAY AFTER THE REGION is the projection of the feature and weight arrays the region found: row `R` is
    written by point `R / 2000`, and every point writes its block of the one function `proj`. -/
theorem final_proj (c : Dev nD) : (dat0 V c).arrAt 2 cfg0.N = proj (V c main_arg0) (V c main_arg1) :=
  (dat0 V c).arrAt_eq_of_cover 2 _ (fun t _ => flushed_proj V c t) fun i => by
    have hi0 : (i 0).val < 100000 := (i 0).isLt
    have hi1 : (i 1).val < 16 := (i 1).isLt
    have hN : cfg0.N = 50 := N_0
    obtain ⟨t, ht⟩ : ∃ t : Fin cfg0.N, t.val = (i 0).val / 2000 := ⟨⟨(i 0).val / 2000, by rw [hN]; omega⟩, rfl⟩
    obtain ⟨-, -, -, -, e20, e21⟩ := block_indices0 t
    refine ⟨t, flush0_2 t, ?_⟩
    rw [mem_block0]
    intro a
    match a with
    | ⟨0, _⟩ => show win0_2.index t (0 : Fin 2) * 2000 ≤ (i 0).val ∧ (i 0).val < win0_2.index t (0 : Fin 2) * 2000 + 2000; rw [e20, ht]; omega
    | ⟨1, _⟩ => show win0_2.index t (1 : Fin 2) * 16 ≤ (i 1).val ∧ (i 1).val < win0_2.index t (1 : Fin 2) * 16 + 16; rw [e21]; omega

end Region

end Cert.KernelIdeal.Layer

end
-- ==== Proof.Rectifier.lean ====
/-
  The rectifier's region: after its ten grid points the result array holds the rectified aggregate.

  Point `t` loads rows `10000·t … 10000·t + 9999` of the aggregated node features and stores, entry by entry, the
  maximum of the loaded value with the zero word's value. The ten blocks of 10000 rows tile the 100000 rows, so the
  result array ends at `relu` of the aggregate the region found.
-/
import proofs.«166954_j12532714570032_1_alg».proof.Proof.Gen.KernelIdeal.Frame
import proofs.«166954_j12532714570032_1_alg».proof.Proof.LayerSpec
import Idealize.ShloMosaic.Lib.Pipeline.Value
import Idealize.ShloMosaic.Lib.ValueIdx

set_option maxRecDepth 16384

noncomputable section

namespace Cert.KernelIdeal.Layer

open Cert.KernelIdeal Cert.KernelIdeal.Gen Cert.Layer
open Idealize.ShloMosaic Idealize.ShloMosaic.TcCoe Idealize.ShloMosaic.ValueIdx Idealize.SL.Sem
open Idealize.ShloMosaic.Pipeline (Dat)

/-- The zero offsets of the rectifier's whole-buffer accesses, as a constant function. -/
theorem whole_offsets : (![0, 0] : Fin 2 → Nat) = fun _ => 0 := funext fun a => by fin_cases a <;> rfl

/-- THE BODY'S STORED VALUE at an entry of the block: the loaded value's maximum with zero (the re-laying onto the
    same shape is the identity, the splat reads its scalar everywhere). -/
theorem pay_relu (x0 : Vec Ideal S10000x16 .f32) (j : S10000x16.Idx) :
    k1_pay1 (F := Ideal) x0 j = max (x0 j) (Ideal.ofBits .f32 0x00000000#32) := by
  unfold k1_pay1
  show max (shapeCast S10000x16 x0 shapeCasts_S10000x16_S10000x16 j) _ = _
  rw [shapeCast_self]
  rfl

section Region
variable (V : (c : Dev nD) → (b : Ref sig .tc) → Buf (Elt Ideal) ((c : Thread nD τ).loc b))

/-- The block indices over the grid: at point `t` both windows are on row block `t`. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `r` of the aggregate's block at point `t` is row `10000·t + r` of the aggregate. -/
theorem agg_block (c : Dev nD) (t : Fin cfg1.N) (r : Fin 10000) (o : Fin 16) (R : Fin 100000)
    (hR : R.val = t.val * 10000 + r.val) :
    iblk1 V c 0 t (ix2 r o) = V c main_v10 (ix2 R o) := by
  obtain ⟨e00, e01, -, -⟩ := block_indices1 t
  unfold iblk1
  rw [View.read_apply]
  show V c main_v10 _ = V c main_v10 _
  refine congrArg (V c main_v10) ?_
  funext a
  apply Fin.ext
  match a with
  | ⟨0, _⟩ => show win1_0.index t (0 : Fin 2) * 10000 + 1 * r.val = R.val; rw [e00, hR]; omega
  | ⟨1, _⟩ => show win1_0.index t (1 : Fin 2) * 16 + 1 * o.val = o.val; rw [e01]; omega

/-- WHAT POINT `t` WRITES BACK is block `t` of the rectified aggregate. -/
theorem flushed_relu (c : Dev nD) (t : Fin cfg1.N) :
    (dat1 V c).flushed 1 t = ((cfg1.win 1).blk t).view.read (Elt Ideal) (relu (V c main_v10)) := by
  show (cfg1.win 1).cut (grid1.coords t) ((dat1 V c).after 1 t) = _
  rw [after1_1]
  unfold out1_1
  rw [View.canon_unit_zero whole_offsets]
  simp only [View.ld_unit_zero (S := S10000x16) whole_offsets]
  obtain ⟨-, -, e10, e11⟩ := block_indices1 t
  have hN : cfg1.N = 10 := N_1
  have ht : t.val < 10 := hN ▸ t.isLt
  funext j
  obtain ⟨r, o, rfl⟩ : ∃ (r : Fin 10000) (o : Fin 16), j = ix2 r o := ⟨j 0, j 1, eq_ix2 j⟩
  refine (pay_relu (iblk1 V c 0 t) (ix2 r o)).trans ?_
  have hr : r.val < 10000 := r.isLt
  have hR : t.val * 10000 + r.val < 100000 := by omega
  have hemb : ((View.whole main_v11).slice ((win1 1).rect t)).emb (ix2 r o) = ix2 (⟨t.val * 10000 + r.val, hR⟩ : Fin 100000) o := by
    funext a
    apply Fin.ext
    match a with
    | ⟨0, _⟩ => show win1_1.index t (0 : Fin 2) * 10000 + 1 * r.val = t.val * 10000 + r.val; rw [e10]; omega
    | ⟨1, _⟩ => show win1_1.index t (1 : Fin 2) * 16 + 1 * o.val = o.val; rw [e11]; omega
  rw [View.read_apply, hemb, relu_apply, agg_block V c t r o ⟨t.val * 10000 + r.val, hR⟩ rfl]
  rfl

/-- An entry of the result array is in point `t`'s block iff each coordinate is in the block's range on its axis. -/
theorem mem_block1 (t : Fin cfg1.N) (i : S100000x16.Idx) :
    i ∈ ((cfg1.win 1).blk t).view.set ↔ ∀ a : Fin 2, win1_1.index t a * S10000x16.size a ≤ (i a).val ∧ (i a).val < win1_1.index t a * S10000x16.size a + S10000x16.size a := by
  show i ∈ ((View.whole main_v11).slice (win1_1.rect t)).set ↔ _
  rw [View.set_slice_whole, Rect.mem_set_unit]
  exact Iff.rfl

/-- THE RESULT ARRAY AFTER THE REGION is the rectified aggregate: row `R` is written by point `R / 10000`. -/
theorem final_relu (c : Dev nD) : (dat1 V c).arrAt 1 cfg1.N = relu (V c main_v10) :=
  (dat1 V c).arrAt_eq_of_cover 1 _ (fun t _ => flushed_relu V c t) fun i => by
    have hi0 : (i 0).val < 100000 := (i 0).isLt
    have hi1 : (i 1).val < 16 := (i 1).isLt
    have hN : cfg1.N = 10 := N_1
    obtain ⟨t, ht⟩ : ∃ t : Fin cfg1.N, t.val = (i 0).val / 10000 := ⟨⟨(i 0).val / 10000, by rw [hN]; omega⟩, rfl⟩
    obtain ⟨-, -, e10, e11⟩ := block_indices1 t
    refine ⟨t, flush1_1 t, ?_⟩
    rw [mem_block1]
    intro a
    match a with
    | ⟨0, _⟩ => show win1_1.index t (0 : Fin 2) * 10000 ≤ (i 0).val ∧ (i 0).val < win1_1.index t (0 : Fin 2) * 10000 + 10000; rw [e10, ht]; omega
    | ⟨1, _⟩ => show win1_1.index t (1 : Fin 2) * 16 ≤ (i 1).val ∧ (i 1).val < win1_1.index t (1 : Fin 2) * 16 + 16; rw [e11]; omega

end Region

end Cert.KernelIdeal.Layer

end
-- ==== Proof.Aggregate.lean ====
/-
  The host stretch between the two regions: the sum aggregation over the graph's edges.

  From the projected node features `h`, the edges' source nodes `src` and destination nodes `dst`, the host operations
  make each negative source index count from the end (add 100000), gather row `src[e]` of `h` for every edge `e`, and add
  the gathered rows into a zero array at rows `dst[e]`. `agg` names that chain as ONE function of `h`, `src` and `dst`;
  nothing here or later opens it. After the stretch the aggregate's buffer holds `agg` of the projection's result array
  as the first region left it and of the two index arguments as launched.
-/
import proofs.«166954_j12532714570032_1_alg».proof.Proof.Gen.KernelIdeal.Frame
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.SL.Sem Idealize.ShloMosaic.StableHlo

variable {F : FTy → Type} [FloatOps F]

/-- The sum aggregation over edges, as the host operations compute it: `out[v, :] = ∑ over edges e with dst[e] = v of
    h[src[e], :]` (with the host's own reading of indices out of range, which both programs share). -/
def agg (h : (⟨S100000x16, .f32⟩ : BufTy).Contents (Elt F)) (src dst : (⟨S3200000, .i32⟩ : BufTy).Contents (Elt F)) :
    (⟨S100000x16, .f32⟩ : BufTy).Contents (Elt F) :=
  Host.scatterAdd (F := F) scatter_S100000x16_S3200000x1_S3200000x16_1_0_0_1
    (broadcastInDim S100000x16 ![] bcast_S_S100000x16 (constant (F := F) S_ .f32 0x00000000#32))
    (broadcastInDim S3200000x1 ![0] bcast_S3200000_S3200000x1_0 dst)
    (Host.gather gather_S100000x16_S3200000x1_S3200000x16_1_0_n_n_0_1_116 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32)))
          src)))

variable (m : (ℓ : Loc nD τ sig) → Buf (Elt F) ℓ) (ρ : Dev nD → PrngReg)

/-- AT THE SECOND REGION'S ENTRY the aggregate's buffer holds `agg` of the three buffers the stretch reads, as the
    first region left them. -/
theorem entry_agg (c : Dev nD) :
    V2 m ρ c main_v10 = agg (W1 m ρ c (Proc.devRef .tc main_v0)) (W1 m ρ c (Proc.devRef .tc main_arg2)) (W1 m ρ c (Proc.devRef .tc main_arg3)) := by
  show StableHlo.after hostOps1 (W1 m ρ c) (Proc.devRef .tc main_v10) = _
  after_results
  rfl

end Cert.KernelIdeal.Layer

end
-- ==== Proof.KernelValue.lean ====
/-
  The idealized kernel's result array as ONE function of its four argument arrays.

  `layer feat w src dst = relu (agg (proj feat w) src dst)`: project every node's features, sum the projected rows over
  the edges into their destination nodes, rectify. The run's fold is unfolded from the end: the result buffer is the
  rectifier's result array, which is `relu` of the aggregate's buffer at that region's entry; that buffer is `agg` of
  the projection's result array as the first region left it and of the two index arguments, which no segment has
  written; and the projection's result array is `proj` of the feature and weight arguments as launched.
-/
import proofs.«166954_j12532714570032_1_alg».proof.Proof.KernelRun
import proofs.«166954_j12532714570032_1_alg».proof.Proof.Projection
import proofs.«166954_j12532714570032_1_alg».proof.Proof.Rectifier
import proofs.«166954_j12532714570032_1_alg».proof.Proof.Aggregate

set_option maxRecDepth 16384

noncomputable section

namespace Cert.KernelIdeal.Layer

open Cert.KernelIdeal Cert.KernelIdeal.Gen Cert.Layer
open Idealize.ShloMosaic Idealize.ShloMosaic.TcCoe Idealize.SL.Sem

/-- The whole layer at the ideal values: projection, sum aggregation over edges, rectifier. -/
def layer (feat : (⟨S100000x1433, .f32⟩ : BufTy).Contents (Elt Ideal)) (w : (⟨S16x1433, .f32⟩ : BufTy).Contents (Elt Ideal))
    (src dst : (⟨S3200000, .i32⟩ : BufTy).Contents (Elt Ideal)) : (⟨S100000x16, .f32⟩ : BufTy).Contents (Elt Ideal) :=
  relu (agg (F := Ideal) (proj feat w) src dst)

variable (m : (ℓ : Loc nD τ sig) → Buf (Elt Ideal) ℓ) (ρ : Dev nD → PrngReg)

/-- The result buffer at the end of the segments' fold is the layer of the four arguments as launched. -/
theorem result_value (c : Dev nD) :
    W3 m ρ c (Proc.devRef .tc main_v11)
      = layer (m ((c.tc : Thread nD τ).loc main_arg0)) (m ((c.tc : Thread nD τ).loc main_arg1))
          (m ((c.tc : Thread nD τ).loc main_arg2)) (m ((c.tc : Thread nD τ).loc main_arg3)) := by
  have h3 : W3 m ρ c (Proc.devRef .tc main_v11) = (dat1 (V2 m ρ) c).arrAt 1 cfg1.N := W3_arr m ρ c 1
  have h1 : W1 m ρ c (Proc.devRef .tc main_v0) = (dat0 (V0 m ρ) c).arrAt 2 cfg0.N := W1_arr m ρ c 2
  have ha2 : W1 m ρ c (Proc.devRef .tc main_arg2) = m ((c.tc : Thread nD τ).loc main_arg2) :=
    (W1_of_ne m ρ c main_arg2 (by decide)).trans rfl
  have ha3 : W1 m ρ c (Proc.devRef .tc main_arg3) = m ((c.tc : Thread nD τ).loc main_arg3) :=
    (W1_of_ne m ρ c main_arg3 (by decide)).trans rfl
  have hv0 : V0 m ρ c main_arg0 = m ((c.tc : Thread nD τ).loc main_arg0) := rfl
  have hv1 : V0 m ρ c main_arg1 = m ((c.tc : Thread nD τ).loc main_arg1) := rfl
  rw [h3, final_relu (V2 m ρ) c, entry_agg m ρ c, h1, ha2, ha3, final_proj (V0 m ρ) c, hv0, hv1]
  rfl

/-- THE KERNEL'S RUN, READ: every weakly fair execution terminates without a fault, the result array ends at the layer
    of the arguments, and the arguments end as launched. -/
theorem run : θ_run defs (onTc (τ := τ) (main (F := Ideal))) ⟨m, fun _ => 0, ρ⟩ (fun r => ∀ c : Dev nD,
      r.2.mem ((c.tc : Thread nD τ).loc main_v11)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (run_named m ρ)

end Cert.KernelIdeal.Layer

end
-- ==== Proof.ReferenceValue.lean ====
/-
  The idealized reference's first and last operations as the specification's functions.

  The reference transposes the weights and takes the `dot_general` of the features with them, contracting the 1433 input
  features: at the ideal values entry `(r, o)` is `∑ₖ feat[r, k] · w[o, k]`, the projection. Its last operation is the
  entrywise maximum with a broadcast zero constant: the rectifier. The operations between (the sum aggregation over
  edges) are left as they are.
-/
import proofs.«166954_j12532714570032_1_alg».proof.Proof.Gen.ReferenceIdeal.Read
import proofs.«166954_j12532714570032_1_alg».proof.Proof.LayerSpec
import Idealize.ShloMosaic.Lib.ValueIdx

set_option maxRecDepth 16384

noncomputable section

namespace Cert.ReferenceIdeal.Layer

open Cert.ReferenceIdeal Cert.ReferenceIdeal.Gen Cert.ReferenceIdeal.Read Cert.Layer
open Idealize.ShloMosaic Idealize.ShloMosaic.TcCoe Idealize.ShloMosaic.ValueIdx Idealize.SL.Sem

/-- The reference's product of the features with the transposed weights is the projection. -/
theorem ref_proj (x0 : (⟨S100000x1433, .f32⟩ : BufTy).Contents (Elt Ideal)) (x1 : (⟨S16x1433, .f32⟩ : BufTy).Contents (Elt Ideal)) :
    val_main_v1 (F := Ideal) x0 x1 = proj x0 x1 := by
  funext i
  obtain ⟨r, o, rfl⟩ : ∃ (r : Fin 100000) (o : Fin 16), i = ix2 r o := ⟨i 0, i 1, eq_ix2 i⟩
  refine (val_main_v1_apply x0 x1 (ix2 r o)).trans ?_
  rw [proj_apply]
  refine Finset.sum_congr rfl fun k _ => ?_
  rw [val_main_v0_apply]
  have e1 : lidx_main_v1 (ix2 r o) k = ix2 r k := funext fun a => Fin.ext (by
    match a with
    | ⟨0, _⟩ => rfl
    | ⟨1, _⟩ => rfl)
  have e2 : idx_main_v0 (ridx_main_v1 (ix2 r o) k) = ix2 o k := funext fun a => Fin.ext (by
    match a with
    | ⟨0, _⟩ => rfl
    | ⟨1, _⟩ => rfl)
  rw [e1, e2]

/-- The reference's maximum with its broadcast zero constant is the rectifier. -/
theorem ref_relu (y : (⟨S100000x16, .f32⟩ : BufTy).Contents (Elt Ideal)) :
    maximumf y (val_main_call0_v0 (F := Ideal)) = relu y := by
  funext i
  show max (y i) (val_main_call0_v0 (F := Ideal) i) = max (y i) (Ideal.ofBits .f32 0x00000000#32)
  refine congrArg (max (y i)) ?_
  exact (val_main_call0_v0_apply (F := Ideal) i).trans rfl

end Cert.ReferenceIdeal.Layer

end
-- ==== Proof.lean ====
/-
  A graph-convolution layer with sum aggregation: `out = relu (A · (feat · wᵀ))`, where `A · h` adds row `src[e]` of `h`
  into row `dst[e]` for every edge `e`. Features are [100000, 1433], weights [16, 1433], 3200000 edges.

  The kernel computes the projection `feat · wᵀ` in fifty row blocks of 2000 nodes (each block a matrix product into a
  zero accumulator, the operands first rounded to a narrower float format), aggregates over the edges on the host, and
  rectifies in ten row blocks of 10000 nodes. The reference computes one `dot_general`, the same host aggregation, and
  one maximum with zero. At the ideal values (floats are extended reals, format changes the identity) both are the ONE
  function `layer feat w src dst = relu (agg (proj feat w) src dst)`:

  * `proj`: entry `(r, o)` is `∑ₖ feat[r, k] · w[o, k]` on both sides, the same sum over the same 1433 terms in the same
    order, so no law of the extended reals beyond reading both products at an index is needed, and the inputs'
    finiteness is never used;
  * `agg`: the same host operations with the same literals on both sides, carried as one closed function;
  * `relu`: the entrywise maximum with the zero word's value on both sides.

  The kernel's blocks tile its arrays (50 × 2000 and 10 × 10000 rows), so what its regions write back, block by
  block, is the whole-array function. The frames of the two kernel programs are the generated ones; the reference's
  frame is its generated run with the result dropped; the idealization rewrote nothing, so `preserves` is `True`.
-/
import proofs.«166954_j12532714570032_1_alg».proof.Defs
import proofs.«166954_j12532714570032_1_alg».proof.Proof.Gen.Kernel
import proofs.«166954_j12532714570032_1_alg».proof.Proof.Gen.Kernel.Skeleton
import proofs.«166954_j12532714570032_1_alg».proof.Proof.Gen.Kernel.Launch
import proofs.«166954_j12532714570032_1_alg».proof.Proof.Gen.Kernel.Points
import proofs.«166954_j12532714570032_1_alg».proof.Proof.Gen.Kernel.Frame
import proofs.«166954_j12532714570032_1_alg».proof.Proof.Gen.KernelIdeal
import proofs.«166954_j12532714570032_1_alg».proof.Proof.Gen.KernelIdeal.Skeleton
import proofs.«166954_j12532714570032_1_alg».proof.Proof.Gen.KernelIdeal.Launch
import proofs.«166954_j12532714570032_1_alg».proof.Proof.Gen.KernelIdeal.Points
import proofs.«166954_j12532714570032_1_alg».proof.Proof.Gen.KernelIdeal.Frame
import proofs.«166954_j12532714570032_1_alg».proof.Proof.Gen.ReferenceIdeal
import proofs.«166954_j12532714570032_1_alg».proof.Proof.Gen.ReferenceIdeal.Run
import proofs.«166954_j12532714570032_1_alg».proof.Proof.Gen.ReferenceIdeal.Read
import proofs.«166954_j12532714570032_1_alg».proof.Proof.Gen.Pre_finite_inputs
import proofs.«166954_j12532714570032_1_alg».proof.Proof.KernelValue
import proofs.«166954_j12532714570032_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- THE REFERENCE'S RESULT IS THE LAYER: its product is the projection, its last maximum the rectifier, and the
    operations between are the aggregation's, term for term (the two programs' dimension records for the gather and
    the scatter-add hold the same numbers). -/
theorem ref_layer (x0 : (⟨Cert.ReferenceIdeal.S100000x1433, .f32⟩ : BufTy).Contents (Elt Ideal))
    (x1 : (⟨Cert.ReferenceIdeal.S16x1433, .f32⟩ : BufTy).Contents (Elt Ideal))
    (x2 x3 : (⟨Cert.ReferenceIdeal.S3200000, .i32⟩ : BufTy).Contents (Elt Ideal)) :
    Cert.ReferenceIdeal.Read.val_main_v12 (F := Ideal) x0 x1 x2 x3 = Cert.KernelIdeal.Layer.layer x0 x1 x2 x3 := by
  unfold Cert.ReferenceIdeal.Read.val_main_v12 Cert.ReferenceIdeal.Read.val_main_v11 Cert.ReferenceIdeal.Read.val_main_v8
  rw [Cert.ReferenceIdeal.Layer.ref_proj, Cert.ReferenceIdeal.Layer.ref_relu]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the arguments the kernel's result array ends at the layer of its arguments (its run,
    read) and the reference's at its operations' term of the same arguments, which is the layer. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v12_eq _ _ _ _).trans (ref_layer _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
